-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x32x64 : Shape := ⟨4, ![8, 64, 32, 64]⟩
abbrev S1x64 : Shape := ⟨2, ![1, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S8x64x32x64 : S_.BroadcastsInDim S8x64x32x64 (![] : Fin 0 → Fin S8x64x32x64.rank)
  reducesTo_S8x64x32x64_S_d0_1_2_3 : S8x64x32x64.ReducesTo [0, 1, 2, 3] S_
  h_S_ : 0 < S_.numel
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg7 : FVec F S64x64 .f32) (main_arg8 : FVec F S64 .f32) (main_arg9 : FVec F S64x1 .f32) (main_arg10 : FVec F S1 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x1 .f32 := Host.absf main_arg9
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg4 : FVec F S64 .f32) (main_arg5 : FVec F S64x64 .f32) (main_arg6 : FVec F S64 .f32) (main_arg7 : FVec F S64x64 .f32) (main_arg8 : FVec F S64 .f32) (main_arg9 : FVec F S64x1 .f32) (main_arg10 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8x64x32x64 .f32) (main_arg1 : FVec F S1x64 .f32) (main_arg2 : FVec F S64 .f32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x1 .f32) (main_arg10 : FVec F S1 .f32) : IVec S_ 1 :=
  let main_v0 : FVec F S8x64x32x64 .f32 := Host.absf main_arg0
  let main_cst : FVec F S_ .f32 := constant S_ .f32 0x7F800000#32
  let main_v1 : FVec F S8x64x32x64 .f32 := broadcastInDim S8x64x32x64 ![] bcast_S_S8x64x32x64 main_cst
  let main_v2 : IVec S8x64x32x64 1 := cmpf .olt main_v0 main_v1
  let main_c : IVec S_ 1 := constantI S_ 1 1#1
  let main_v3 : IVec S_ 1 := (fun x v => Host.reduce IntOp.andi x v reducesTo_S8x64x32x64_S_d0_1_2_3 h_S_) main_v2 main_c
  let main_v4 : FVec F S1x64 .f32 := Host.absf main_arg1
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_v13 main_v16
-- ==== Kernel.lean ====
abbrev S8x64x32x64 : Shape := ⟨4, ![8, 64, 32, 64]⟩
abbrev S1x64 : Shape := ⟨2, ![1, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S8x64x64 : Shape := ⟨3, ![8, 64, 64]⟩
abbrev S1x8x32x64 : Shape := ⟨4, ![1, 8, 32, 64]⟩
abbrev S1x8x64 : Shape := ⟨3, ![1, 8, 64]⟩
abbrev S8x32x64 : Shape := ⟨3, ![8, 32, 64]⟩
abbrev S8x32x64x1 : Shape := ⟨4, ![8, 32, 64, 1]⟩
abbrev S1x1x1x64 : Shape := ⟨4, ![1, 1, 1, 64]⟩
abbrev S8x32x64x64 : Shape := ⟨4, ![8, 32, 64, 64]⟩
abbrev S16384x64 : Shape := ⟨2, ![16384, 64]⟩
abbrev S512x64 : Shape := ⟨2, ![512, 64]⟩
abbrev S512x1 : Shape := ⟨2, ![512, 1]⟩
abbrev S1x1 : Shape := ⟨2, ![1, 1]⟩
abbrev S512 : Shape := ⟨1, ![512]⟩
abbrev S8x64 : Shape := ⟨2, ![8, 64]⟩

abbrev nBuf : Space → Nat
  | .hbm => 12
  | .vmem => 14
  | .smem => 0
  | _ => 0

abbrev bufTy : (tb : Table) → Fin (tcTables nBuf tb) → BufTy
  | .hbm, ⟨0, _⟩ => ⟨S8x64x32x64, .f32⟩
  | .hbm, ⟨1, _⟩ => ⟨S1x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x1, .f32⟩
  | .hbm, ⟨10, _⟩ => ⟨S1, .f32⟩
  | .hbm, ⟨11, _⟩ => ⟨S8x64x64, .f32⟩
  | .local _ .vmem, ⟨0, _⟩ => ⟨S1x8x32x64, .f32⟩
  | .local _ .vmem, ⟨1, _⟩ => ⟨S1x8x32x64, .f32⟩
  | .local _ .vmem, ⟨2, _⟩ => ⟨S1x64, .f32⟩
  | .local _ .vmem, ⟨3, _⟩ => ⟨S64, .f32⟩
  | .local _ .vmem, ⟨4, _⟩ => ⟨S64x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S64x64, .f32⟩
  | .local _ .vmem, ⟨9, _⟩ => ⟨S64, .f32⟩
  | .local _ .vmem, ⟨10, _⟩ => ⟨S64x1, .f32⟩
  | .local _ .vmem, ⟨11, _⟩ => ⟨S1, .f32⟩
  | .local _ .vmem, ⟨12, _⟩ => ⟨S1x8x64, .f32⟩
  | .local _ .vmem, ⟨13, _⟩ => ⟨S1x8x64, .f32⟩
  | _, _ => ⟨S8x64x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x32x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x8x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  inb_S1x8x32x64_S1x8x32x64_0_0_0_0 : ∀ a, (![0, 0, 0, 0] : Fin 4 → Nat) a + S1x8x32x64.size a ≤ S1x8x32x64.size a
  h_S1x8x32x64 : 0 < S1x8x32x64.numel
  shapeCasts_S1x8x32x64_S8x32x64 : S1x8x32x64.ShapeCasts S8x32x64
  inb_S1x64_S1x64_0_0 : ∀ a, (![0, 0] : Fin 2 → Nat) a + S1x64.size a ≤ S1x64.size a
  h_S1x64 : 0 < S1x64.numel
  shapeCasts_S1x64_S64 : S1x64.ShapeCasts S64
  inb_S64_S64_0 : ∀ a, (![0] : Fin 1 → Nat) a + S64.size a ≤ S64.size a
  h_S64 : 0 < S64.numel
  shapeCasts_S8x32x64_S8x32x64x1 : S8x32x64.ShapeCasts S8x32x64x1
  shapeCasts_S64_S1x1x1x64 : S64.ShapeCasts S1x1x1x64
  broadcasts_S8x32x64x1_S8x32x64x64 : S8x32x64x1.Broadcasts S8x32x64x64
  broadcasts_S1x1x1x64_S8x32x64x64 : S1x1x1x64.Broadcasts S8x32x64x64
  shapeCasts_S8x32x64x64_S16384x64 : S8x32x64x64.ShapeCasts S16384x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64_S1x64 : S64.ShapeCasts S1x64
  broadcasts_S1x64_S16384x64 : S1x64.Broadcasts S16384x64
  shapeCasts_S16384x64_S8x32x64x64 : S16384x64.ShapeCasts S8x32x64x64
  reduces_S8x32x64x64_S8x64x64 : S8x32x64x64.Reduces [1] S8x64x64
  shapeCasts_S8x64x64_S512x64 : S8x64x64.ShapeCasts S512x64
  broadcasts_S1x64_S512x64 : S1x64.Broadcasts S512x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S512x1 : S1x1.Broadcasts S512x1
  shapeCasts_S512x1_S512 : S512x1.ShapeCasts S512
  shapeCasts_S512_S8x64 : S512.ShapeCasts S8x64
  inb_S1x8x64_S1x8x64_0_0_0 : ∀ a, (![0, 0, 0] : Fin 3 → Nat) a + S1x8x64.size a ≤ S1x8x64.size a
  h_S1x8x64 : 0 < S1x8x64.numel
  shapeCasts_S1x8x64_S8x64 : S1x8x64.ShapeCasts S8x64
  shapeCasts_S8x64_S1x8x64 : S8x64.ShapeCasts S1x8x64
  dot_S16384x64_S64x64_S16384x64_1_0_0_1_n_n_wf : DotDims.WF S16384x64 S64x64 S16384x64 [1] [0] [0] [1] [] []
  dot_S512x64_S64x64_S512x64_1_0_0_1_n_n_wf : DotDims.WF S512x64 S64x64 S512x64 [1] [0] [0] [1] [] []
  dot_S512x64_S64x1_S512x1_1_0_0_1_n_n_wf : DotDims.WF S512x64 S64x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x32x64.size a ≤ S8x64x32x64.size a
  hwx0_0 : ∀ i : grid0.Coords, EltTy.bits .f32 = 32 ∨ (Rect.block (s := S8x64x32x64) S1x8x32x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x1.size a ≤ S64x1.size a
  hwx0_9 : ∀ i : grid0.Coords, EltTy.bits .f32 = 32 ∨ (Rect.block (s := S64x1) S64x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1.size a ≤ S1.size a
  hwx0_10 : ∀ i : grid0.Coords, EltTy.bits .f32 = 32 ∨ (Rect.block (s := S1) S1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x8x64.size a ≤ S8x64x64.size a
  hwx0_11 : ∀ i : grid0.Coords, EltTy.bits .f32 = 32 ∨ (Rect.block (s := S8x64x64) S1x8x64.size (cc0_transform_11 i) (hinb0_11 i)).WholeWords (EltTy.packing .f32)

variable [Facts₀]

def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

abbrev win0_0 : Pipeline.Window sig grid0 :=
  Pipeline.Window.ofSpec (Memref.whole main_arg0) S1x8x32x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S64x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0) S1x8x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S8x64x32x64 : Shape := ⟨4, ![8, 64, 32, 64]⟩
abbrev S1x64 : Shape := ⟨2, ![1, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S8x64x32x64x1 : Shape := ⟨5, ![8, 64, 32, 64, 1]⟩
abbrev S1x1x1x1x64 : Shape := ⟨5, ![1, 1, 1, 1, 64]⟩
abbrev S8x64x32x64x64 : Shape := ⟨5, ![8, 64, 32, 64, 64]⟩
abbrev S_ : Shape := ⟨0, ![]⟩
abbrev S8x64x64x64 : Shape := ⟨4, ![8, 64, 64, 64]⟩
abbrev S1x1x1x64 : Shape := ⟨4, ![1, 1, 1, 64]⟩
abbrev S8x64x64x1 : Shape := ⟨4, ![8, 64, 64, 1]⟩
abbrev S1x1x1x1 : Shape := ⟨4, ![1, 1, 1, 1]⟩
abbrev S8x64x64 : Shape := ⟨3, ![8, 64, 64]⟩

abbrev nBuf : Space → Nat
  | .hbm => 51
  | .vmem => 0
  | .smem => 0
  | _ => 0

abbrev bufTy : (tb : Table) → Fin (tcTables nBuf tb) → BufTy
  | .hbm, ⟨0, _⟩ => ⟨S8x64x32x64, .f32⟩
  | .hbm, ⟨1, _⟩ => ⟨S1x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x1, .f32⟩
  | .hbm, ⟨10, _⟩ => ⟨S1, .f32⟩
  | .hbm, ⟨11, _⟩ => ⟨S8x64x32x64x1, .f32⟩
  | .hbm, ⟨12, _⟩ => ⟨S64, .f32⟩
  | .hbm, ⟨13, _⟩ => ⟨S1x1x1x1x64, .f32⟩
  | .hbm, ⟨14, _⟩ => ⟨S8x64x32x64x64, .f32⟩
  | .hbm, ⟨15, _⟩ => ⟨S8x64x32x64x64, .f32⟩
  | .hbm, ⟨16, _⟩ => ⟨S8x64x32x64x64, .f32⟩
  | .hbm, ⟨17, _⟩ => ⟨S1x1x1x1x64, .f32⟩
  | .hbm, ⟨18, _⟩ => ⟨S8x64x32x64x64, .f32⟩
  | .hbm, ⟨19, _⟩ => ⟨S8x64x32x64x64, .f32⟩
  | .hbm, ⟨20, _⟩ => ⟨S_, .f32⟩
  | .hbm, ⟨21, _⟩ => ⟨S8x64x32x64x64, .f32⟩
  | .hbm, ⟨22, _⟩ => ⟨S8x64x32x64x64, .f32⟩
  | .hbm, ⟨23, _⟩ => ⟨S8x64x32x64x64, .f32⟩
  | .hbm, ⟨24, _⟩ => ⟨S1x1x1x1x64, .f32⟩
  | .hbm, ⟨25, _⟩ => ⟨S8x64x32x64x64, .f32⟩
  | .hbm, ⟨26, _⟩ => ⟨S8x64x32x64x64, .f32⟩
  | .hbm, ⟨27, _⟩ => ⟨S_, .f32⟩
  | .hbm, ⟨28, _⟩ => ⟨S8x64x32x64x64, .f32⟩
  | .hbm, ⟨29, _⟩ => ⟨S8x64x32x64x64, .f32⟩
  | .hbm, ⟨30, _⟩ => ⟨S_, .f32⟩
  | .hbm, ⟨31, _⟩ => ⟨S8x64x64x64, .f32⟩
  | .hbm, ⟨32, _⟩ => ⟨S8x64x64x64, .f32⟩
  | .hbm, ⟨33, _⟩ => ⟨S1x1x1x64, .f32⟩
  | .hbm, ⟨34, _⟩ => ⟨S8x64x64x64, .f32⟩
  | .hbm, ⟨35, _⟩ => ⟨S8x64x64x64, .f32⟩
  | .hbm, ⟨36, _⟩ => ⟨S_, .f32⟩
  | .hbm, ⟨37, _⟩ => ⟨S8x64x64x64, .f32⟩
  | .hbm, ⟨38, _⟩ => ⟨S8x64x64x64, .f32⟩
  | .hbm, ⟨39, _⟩ => ⟨S8x64x64x64, .f32⟩
  | .hbm, ⟨40, _⟩ => ⟨S1x1x1x64, .f32⟩
  | .hbm, ⟨41, _⟩ => ⟨S8x64x64x64, .f32⟩
  | .hbm, ⟨42, _⟩ => ⟨S8x64x64x64, .f32⟩
  | .hbm, ⟨43, _⟩ => ⟨S_, .f32⟩
  | .hbm, ⟨44, _⟩ => ⟨S8x64x64x64, .f32⟩
  | .hbm, ⟨45, _⟩ => ⟨S8x64x64x64, .f32⟩
  | .hbm, ⟨46, _⟩ => ⟨S8x64x64x1, .f32⟩
  | .hbm, ⟨47, _⟩ => ⟨S1x1x1x1, .f32⟩
  | .hbm, ⟨48, _⟩ => ⟨S8x64x64x1, .f32⟩
  | .hbm, ⟨49, _⟩ => ⟨S8x64x64x1, .f32⟩
  | .hbm, ⟨50, _⟩ => ⟨S8x64x64, .f32⟩
  | _, _ => ⟨S8x64x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call0_cst : Ref sig .tc := ⟨.hbm, 20, rfl⟩
abbrev main_call0_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call1_cst : Ref sig .tc := ⟨.hbm, 27, rfl⟩
abbrev main_call1_v0 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_call2_cst : Ref sig .tc := ⟨.hbm, 36, rfl⟩
abbrev main_call2_v0 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call3_cst : Ref sig .tc := ⟨.hbm, 43, rfl⟩
abbrev main_call3_v0 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩

abbrev nD : Nat := 1
abbrev τ : Topo := Topo.v7x

variable {F : FTy → Type} [FloatOps F]

class Facts₀ : Prop where
  bcast_S8x64x32x64_S8x64x32x64x1_0_1_2_3 : S8x64x32x64.BroadcastsInDim S8x64x32x64x1 (![0, 1, 2, 3] : Fin 4 → Fin S8x64x32x64x1.rank)
  shapeCasts_S1x64_S64 : S1x64.ShapeCasts S64
  bcast_S64_S1x1x1x1x64_4 : S64.BroadcastsInDim S1x1x1x1x64 (![4] : Fin 1 → Fin S1x1x1x1x64.rank)
  bcast_S8x64x32x64x1_S8x64x32x64x64_0_1_2_3_4 : S8x64x32x64x1.BroadcastsInDim S8x64x32x64x64 (![0, 1, 2, 3, 4] : Fin 5 → Fin S8x64x32x64x64.rank)
  bcast_S1x1x1x1x64_S8x64x32x64x64_0_1_2_3_4 : S1x1x1x1x64.BroadcastsInDim S8x64x32x64x64 (![0, 1, 2, 3, 4] : Fin 5 → Fin S8x64x32x64x64.rank)
  bcast_S_S8x64x32x64x64 : S_.BroadcastsInDim S8x64x32x64x64 (![] : Fin 0 → Fin S8x64x32x64x64.rank)
  reducesTo_S8x64x32x64x64_S8x64x64x64_d2 : S8x64x32x64x64.ReducesTo [2] S8x64x64x64
  h_S_ : 0 < S_.numel
  bcast_S64_S1x1x1x64_3 : S64.BroadcastsInDim S1x1x1x64 (![3] : Fin 1 → Fin S1x1x1x64.rank)
  bcast_S1x1x1x64_S8x64x64x64_0_1_2_3 : S1x1x1x64.BroadcastsInDim S8x64x64x64 (![0, 1, 2, 3] : Fin 4 → Fin S8x64x64x64.rank)
  bcast_S_S8x64x64x64 : S_.BroadcastsInDim S8x64x64x64 (![] : Fin 0 → Fin S8x64x64x64.rank)
  bcast_S1_S1x1x1x1_3 : S1.BroadcastsInDim S1x1x1x1 (![3] : Fin 1 → Fin S1x1x1x1.rank)
  bcast_S1x1x1x1_S8x64x64x1_0_1_2_3 : S1x1x1x1.BroadcastsInDim S8x64x64x1 (![0, 1, 2, 3] : Fin 4 → Fin S8x64x64x1.rank)
  shapeCasts_S8x64x64x1_S8x64x64 : S8x64x64x1.ShapeCasts S8x64x64
  dot_S8x64x32x64x64_S64x64_S8x64x32x64x64_4_0_0123_1_n_n_wf : DotDims.WF S8x64x32x64x64 S64x64 S8x64x32x64x64 [4] [0] [0, 1, 2, 3] [1] [] []
  dot_S8x64x64x64_S64x64_S8x64x64x64_3_0_012_1_n_n_wf : DotDims.WF S8x64x64x64 S64x64 S8x64x64x64 [3] [0] [0, 1, 2] [1] [] []
  dot_S8x64x64x64_S64x1_S8x64x64x1_3_0_012_1_n_n_wf : DotDims.WF S8x64x64x64 S64x1 S8x64x64x1 [3] [0] [0, 1, 2] [1] [] []

variable [Facts₀]

def dot_S8x64x32x64x64_S64x64_S8x64x32x64x64_4_0_0123_1_n_n : DotDims S8x64x32x64x64 S64x64 S8x64x32x64x64 where
  lhsContracting := [4]
  rhsContracting := [0]
  lhsNonContracting := [0, 1, 2, 3]
  rhsNonContracting := [1]
  lhsBatch := []
  rhsBatch := []
  wf := dot_S8x64x32x64x64_S64x64_S8x64x32x64x64_4_0_0123_1_n_n_wf
def dot_S8x64x64x64_S64x64_S8x64x64x64_3_0_012_1_n_n : DotDims S8x64x64x64 S64x64 S8x64x64x64 where
  lhsContracting := [3]
  rhsContracting := [0]
  lhsNonContracting := [0, 1, 2]
  rhsNonContracting := [1]
  lhsBatch := []
  rhsBatch := []
  wf := dot_S8x64x64x64_S64x64_S8x64x64x64_3_0_012_1_n_n_wf
def dot_S8x64x64x64_S64x1_S8x64x64x1_3_0_012_1_n_n : DotDims S8x64x64x64 S64x1 S8x64x64x1 where
  lhsContracting := [3]
  rhsContracting := [0]
  lhsNonContracting := [0, 1, 2]
  rhsNonContracting := [1]
  lhsBatch := []
  rhsBatch := []
  wf := dot_S8x64x64x64_S64x1_S8x64x64x1_3_0_012_1_n_n_wf

class Facts : Prop extends Facts₀ where

variable [Facts]
-- ==== Proof.Spec.lean ====
/-
  The mathematics both programs compute, for ONE (batch, user, resource-block) triple, on the extended reals.

  An edge feature `e` (one per access point) is lifted to 64 hidden features `relu (e · w₁ m + b₁ m)`, sent through a dense
  layer with relu (`dense`: `relu ((∑ m, x m · W m n) + b n)`), the 32 access points' messages are summed (`agg`), the sum
  goes through two more dense layers with relu, and the score is the last hidden vector's product with the output column
  plus its bias. Everything is a function of Fin-indexed families of extended reals: no shapes, no blocks, no programs.
-/
import Idealize.ShloMosaic.PureOps.Ideal

noncomputable section

open scoped BigOperators

namespace Cert.Spec

/-- One edge feature lifted to the hidden width: `relu (e · w m + b m)`. -/
def hidden (e : EReal) (w b : Fin 64 → EReal) (m : Fin 64) : EReal := max (e * w m + b m) 0

/-- A dense layer with relu over 64 inputs: `relu ((∑ m, x m · W m n) + b n)`. -/
def dense (x : Fin 64 → EReal) (W : Fin 64 → Fin 64 → EReal) (b : Fin 64 → EReal) (n : Fin 64) : EReal :=
  max ((∑ m : Fin 64, x m * W m n) + b n) 0

/-- The message of one edge: its hidden features through the second edge layer. -/
def msg (e : EReal) (w1 b1 : Fin 64 → EReal) (W2 : Fin 64 → Fin 64 → EReal) (b2 : Fin 64 → EReal) (n : Fin 64) : EReal :=
  dense (hidden e w1 b1) W2 b2 n

/-- The messages of the 32 access points of one (user, resource-block) pair, summed. -/
def agg (e : Fin 32 → EReal) (w1 b1 : Fin 64 → EReal) (W2 : Fin 64 → Fin 64 → EReal) (b2 : Fin 64 → EReal) (n : Fin 64) : EReal :=
  ∑ a : Fin 32, msg (e a) w1 b1 W2 b2 n

/-- The node network's last hidden vector: the aggregate through two dense layers with relu. -/
def node (e : Fin 32 → EReal) (w1 b1 : Fin 64 → EReal) (W2 : Fin 64 → Fin 64 → EReal) (b2 : Fin 64 → EReal)
    (U1 : Fin 64 → Fin 64 → EReal) (c1 : Fin 64 → EReal) (U2 : Fin 64 → Fin 64 → EReal) (c2 : Fin 64 → EReal) (g : Fin 64) : EReal :=
  dense (dense (agg e w1 b1 W2 b2) U1 c1) U2 c2 g

/-- The score of one (batch, user, resource-block) triple. -/
def score (e : Fin 32 → EReal) (w1 b1 : Fin 64 → EReal) (W2 : Fin 64 → Fin 64 → EReal) (b2 : Fin 64 → EReal)
    (U1 : Fin 64 → Fin 64 → EReal) (c1 : Fin 64 → EReal) (U2 : Fin 64 → Fin 64 → EReal) (c2 : Fin 64 → EReal)
    (wo : Fin 64 → EReal) (bo : EReal) : EReal :=
  (∑ g : Fin 64, node e w1 b1 W2 b2 U1 c1 U2 c2 g * wo g) + bo

/-- The score depends only on the families' values: equal families give equal scores. -/
theorem score_congr {e e' : Fin 32 → EReal} {w1 w1' b1 b1' : Fin 64 → EReal} {W2 W2' : Fin 64 → Fin 64 → EReal} {b2 b2' : Fin 64 → EReal}
    {U1 U1' : Fin 64 → Fin 64 → EReal} {c1 c1' : Fin 64 → EReal} {U2 U2' : Fin 64 → Fin 64 → EReal} {c2 c2' : Fin 64 → EReal}
    {wo wo' : Fin 64 → EReal} {bo bo' : EReal}
    (he : e = e') (hw1 : w1 = w1') (hb1 : b1 = b1') (hW2 : W2 = W2') (hb2 : b2 = b2') (hU1 : U1 = U1') (hc1 : c1 = c1')
    (hU2 : U2 = U2') (hc2 : c2 = c2') (hwo : wo = wo') (hbo : bo = bo') :
    score e w1 b1 W2 b2 U1 c1 U2 c2 wo bo = score e' w1' b1' W2' b2' U1' c1' U2' c2' wo' bo' := by
  subst he hw1 hb1 hW2 hb2 hU1 hc1 hU2 hc2 hwo hbo
  rfl

end Cert.Spec

end
-- ==== Proof.LibRank4Layout.lean ====
/-
  Layout operations of a rank-4 block read at an index, generic in the extents.

  A kernel that treats an `[A, B, C]` block of scalars as `A·B·C` rows of hidden features works on `[A, B, C, D]` arrays
  that it flattens to `[A·B·C, D]` for a matrix product and unflattens again; it sums over the second axis and flattens the
  `[A, C, D]` result to `[A·C, D]`. Each lemma names the one operand element an element of the result is:
  the row of the flat form is the row-major position of the leading coordinates.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Proof.Rank4Layout

open Idealize.ShloMosaic Idealize.ShloMosaic.ValueIdx

variable {α : Type}

/-- `[A, B, C]` cast to `[A, B, C, 1]`: the element at `(p, q, r, z)` is the operand's at `(p, q, r)`. -/
theorem shapeCast_abc_abc1_apply {A B C : ℕ} (x : (⟨3, ![A, B, C]⟩ : Shape).Idx → α)
    (h : (⟨3, ![A, B, C]⟩ : Shape).ShapeCasts ⟨4, ![A, B, C, 1]⟩) (p : Fin A) (q : Fin B) (r : Fin C) (z : Fin 1) :
    shapeCast ⟨4, ![A, B, C, 1]⟩ x h (ix4 p q r z) = x (ix3 p q r) :=
  shapeCast_apply x h _ _ (by
    have hz : z.val = 0 := by omega
    rw [Shape.rowMajor_val_four, Shape.rowMajor_val_three]
    show (p.val * B + q.val) * C + r.val = ((p.val * B + q.val) * C + r.val) * 1 + z.val
    rw [hz, Nat.mul_one, Nat.add_zero])

/-- `[A, B, C, 1]` broadcast to `[A, B, C, D]`: the element at `(p, q, r, d)` is the operand's at `(p, q, r, 0)`. -/
theorem broadcastTo_abc1_abcd_apply {A B C D : ℕ} (x : (⟨4, ![A, B, C, 1]⟩ : Shape).Idx → α)
    (h : (⟨4, ![A, B, C, 1]⟩ : Shape).Broadcasts ⟨4, ![A, B, C, D]⟩) (p : Fin A) (q : Fin B) (r : Fin C) (d : Fin D) :
    broadcastTo ⟨4, ![A, B, C, D]⟩ x h (ix4 p q r d) = x (ix4 p q r (0 : Fin 1)) := by
  refine broadcastTo_apply x h (ix4 p q r d) (ix4 p q r (0 : Fin 1)) fun ax => ?_
  match ax with
  | ⟨0, _⟩ =>
    show p.val = if A = 1 then 0 else p.val
    split
    · have := p.isLt; omega
    · rfl
  | ⟨1, _⟩ =>
    show q.val = if B = 1 then 0 else q.val
    split
    · have := q.isLt; omega
    · rfl
  | ⟨2, _⟩ =>
    show r.val = if C = 1 then 0 else r.val
    split
    · have := r.isLt; omega
    · rfl
  | ⟨3, _⟩ => rfl

/-- `[D]` cast to `[1, 1, 1, D]`: the element at `(·, ·, ·, d)` is the operand's at `d`. -/
theorem shapeCast_d_111d_apply {D : ℕ} (x : (⟨1, ![D]⟩ : Shape).Idx → α)
    (h : (⟨1, ![D]⟩ : Shape).ShapeCasts ⟨4, ![1, 1, 1, D]⟩) (z0 z1 z2 : Fin 1) (d : Fin D) :
    shapeCast ⟨4, ![1, 1, 1, D]⟩ x h (ix4 z0 z1 z2 d) = x (ix1 d) :=
  shapeCast_apply x h _ _ (by
    have h0 : z0.val = 0 := by omega
    have h1 : z1.val = 0 := by omega
    have h2 : z2.val = 0 := by omega
    rw [Shape.rowMajor_val_four, Shape.rowMajor_val_one]
    show d.val = ((z0.val * 1 + z1.val) * 1 + z2.val) * D + d.val
    rw [h0, h1, h2]; simp)

/-- `[1, 1, 1, D]` broadcast to `[A, B, C, D]`: the element at `(p, q, r, d)` is the operand's at `(0, 0, 0, d)`. -/
theorem broadcastTo_111d_abcd_apply {A B C D : ℕ} (x : (⟨4, ![1, 1, 1, D]⟩ : Shape).Idx → α)
    (h : (⟨4, ![1, 1, 1, D]⟩ : Shape).Broadcasts ⟨4, ![A, B, C, D]⟩) (p : Fin A) (q : Fin B) (r : Fin C) (d : Fin D) :
    broadcastTo ⟨4, ![A, B, C, D]⟩ x h (ix4 p q r d) = x (ix4 (0 : Fin 1) (0 : Fin 1) (0 : Fin 1) d) := by
  refine broadcastTo_apply x h (ix4 p q r d) (ix4 (0 : Fin 1) (0 : Fin 1) (0 : Fin 1) d) fun ax => ?_
  match ax with
  | ⟨0, _⟩ => rfl
  | ⟨1, _⟩ => rfl
  | ⟨2, _⟩ => rfl
  | ⟨3, _⟩ =>
    show d.val = if D = 1 then 0 else d.val
    split
    · have := d.isLt; omega
    · rfl

/-- `[A, B, C, D]` flattened to `[N, D]` rows: row `R` with `R = (p·B + q)·C + r` at column `d` is the operand's `(p, q, r, d)`. -/
theorem shapeCast_abcd_rows_apply {A B C D N : ℕ} (x : (⟨4, ![A, B, C, D]⟩ : Shape).Idx → α)
    (h : (⟨4, ![A, B, C, D]⟩ : Shape).ShapeCasts ⟨2, ![N, D]⟩) (R : Fin N) (p : Fin A) (q : Fin B) (r : Fin C) (d : Fin D)
    (hR : R.val = (p.val * B + q.val) * C + r.val) :
    shapeCast ⟨2, ![N, D]⟩ x h (ix2 R d) = x (ix4 p q r d) :=
  shapeCast_apply x h _ _ (by
    rw [Shape.rowMajor_val_four, Shape.rowMajor_val_two]
    show ((p.val * B + q.val) * C + r.val) * D + d.val = R.val * D + d.val
    rw [hR])

/-- `[N, D]` rows unflattened to `[A, B, C, D]`: the element at `(p, q, r, d)` is row `(p·B + q)·C + r` at column `d`. -/
theorem shapeCast_rows_abcd_apply {A B C D N : ℕ} (x : (⟨2, ![N, D]⟩ : Shape).Idx → α)
    (h : (⟨2, ![N, D]⟩ : Shape).ShapeCasts ⟨4, ![A, B, C, D]⟩) (R : Fin N) (p : Fin A) (q : Fin B) (r : Fin C) (d : Fin D)
    (hR : R.val = (p.val * B + q.val) * C + r.val) :
    shapeCast ⟨4, ![A, B, C, D]⟩ x h (ix4 p q r d) = x (ix2 R d) :=
  shapeCast_apply x h _ _ (by
    rw [Shape.rowMajor_val_four, Shape.rowMajor_val_two]
    show R.val * D + d.val = ((p.val * B + q.val) * C + r.val) * D + d.val
    rw [hR])

/-- `[A, C, D]` flattened to `[N, D]` rows: row `R` with `R = p·C + r` at column `d` is the operand's `(p, r, d)`. -/
theorem shapeCast_acd_rows_apply {A C D N : ℕ} (x : (⟨3, ![A, C, D]⟩ : Shape).Idx → α)
    (h : (⟨3, ![A, C, D]⟩ : Shape).ShapeCasts ⟨2, ![N, D]⟩) (R : Fin N) (p : Fin A) (r : Fin C) (d : Fin D)
    (hR : R.val = p.val * C + r.val) :
    shapeCast ⟨2, ![N, D]⟩ x h (ix2 R d) = x (ix3 p r d) :=
  shapeCast_apply x h _ _ (by
    rw [Shape.rowMajor_val_three, Shape.rowMajor_val_two]
    show (p.val * C + r.val) * D + d.val = R.val * D + d.val
    rw [hR])

/-- An `[N, 1]` column cast to the vector `[N]`: the element at `R` is the column's `(R, 0)`. -/
theorem shapeCast_col_vec_apply {N : ℕ} (x : (⟨2, ![N, 1]⟩ : Shape).Idx → α)
    (h : (⟨2, ![N, 1]⟩ : Shape).ShapeCasts ⟨1, ![N]⟩) (R : Fin N) :
    shapeCast ⟨1, ![N]⟩ x h (ix1 R) = x (ix2 R (0 : Fin 1)) :=
  shapeCast_apply x h _ _ (by
    rw [Shape.rowMajor_val_two, Shape.rowMajor_val_one]
    show R.val * 1 + 0 = R.val
    rw [Nat.mul_one, Nat.add_zero])

/-- A vector `[N]` cast to `[A, C]`: the element at `(p, r)` is the vector's at `R = p·C + r`. -/
theorem shapeCast_vec_ac_apply {A C N : ℕ} (x : (⟨1, ![N]⟩ : Shape).Idx → α)
    (h : (⟨1, ![N]⟩ : Shape).ShapeCasts ⟨2, ![A, C]⟩) (R : Fin N) (p : Fin A) (r : Fin C) (hR : R.val = p.val * C + r.val) :
    shapeCast ⟨2, ![A, C]⟩ x h (ix2 p r) = x (ix1 R) :=
  shapeCast_apply x h _ _ (by
    rw [Shape.rowMajor_val_two, Shape.rowMajor_val_one]
    show R.val = p.val * C + r.val
    exact hR)

/-- At the extended reals a float `multi_reduction <add>` over the SECOND axis of an `[A, B, C, D]` array, read at `(p, r, d)`,
    is the sum over `q` of the operand at `(p, q, r, d)`. The proof arguments are variables so that the lemma meets a printed
    reduction whatever proofs it carries. -/
theorem multiReduction_add_axis1_apply {A B C D : ℕ} {φ : FTy} (src : FVec Ideal ⟨4, ![A, B, C, D]⟩ φ) (acc : BitVec φ.bits)
    (h : (⟨4, ![A, B, C, D]⟩ : Shape).Reduces [1] ⟨3, ![A, C, D]⟩) (hφ : FKind.Formats φ) (hacc : acc = FKind.add.neutral φ hφ)
    (p : Fin A) (r : Fin C) (d : Fin D) :
    multiReduction .add [1] ⟨3, ![A, C, D]⟩ src acc h hφ hacc (ix3 p r d) = ∑ q : Fin B, src (ix4 p q r d) := by
  refine (Ideal.multiReduction_add_single src acc h hφ hacc (ix3 p r d)).trans ?_
  refine Finset.sum_congr rfl fun q _ => congrArg src (funext fun ax => Fin.ext ?_)
  match ax with
  | ⟨0, _⟩ => rfl
  | ⟨1, _⟩ => rfl
  | ⟨2, _⟩ => rfl
  | ⟨3, _⟩ => rfl

end Cert.Proof.Rank4Layout

end
-- ==== Proof.LibPlainDot.lean ====
/-
  A plain matrix product read at an index. For the dimension numbers that contract the second axis of an `M × K`
  array with the first axis of a `K × N` array and keep the other two axes in order, both the `dot_general`
  of the two arrays and their `matmul` into a zero accumulator are, at the extended reals, the textbook sum
  `∑ k, X (r, k) · W (k, c)`: the contraction shape has one axis of extent `K`, its indices are re-indexed by `Fin K`,
  and each operand index is read coordinate by coordinate.
-/
import Idealize.ShloMosaic.PureOps.Ideal
import Idealize.ShloMosaic.PureOps.Ideal.Laws
import Idealize.ShloMosaic.Lib.ValueIdx

noncomputable section

open scoped BigOperators

namespace Cert.Proof.PlainDot

open Idealize.ShloMosaic Idealize.ShloMosaic.ValueIdx

variable {M K N : Nat}

/-- The left operand's row coordinate is the output's row coordinate: axis 0 of the left is its one free axis. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position: axis 1 of the left is the contracted one. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction position: axis 0 of the right is the contracted one. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the output's column coordinate: axis 1 of the right is its one free axis. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At contraction position `k` (put on the contraction shape's one axis) the left operand is read at `(r, k)`. -/
theorem lhsIdx_plain (i : (⟨2, ![M, N]⟩ : Shape).Idx) (k : Fin K) :
    (DotDims.plain M K N).lhsIdx i ((contrEquiv1 (DotDims.plain M K N) K rfl rfl).symm k) = ix2 (i 0) k := by
  have hk := contrEquiv1_symm_val (DotDims.plain M K N) K rfl rfl k
  funext a
  refine Fin.ext ?_
  match a with
  | ⟨0, _⟩ => exact lhs_row i _
  | ⟨1, _⟩ => exact (lhs_col i _).trans hk

/-- At contraction position `k` the right operand is read at `(k, c)`. -/
theorem rhsIdx_plain (i : (⟨2, ![M, N]⟩ : Shape).Idx) (k : Fin K) :
    (DotDims.plain M K N).rhsIdx i ((contrEquiv1 (DotDims.plain M K N) K rfl rfl).symm k) = ix2 k (i 1) := by
  have hk := contrEquiv1_symm_val (DotDims.plain M K N) K rfl rfl k
  funext a
  refine Fin.ext ?_
  match a with
  | ⟨0, _⟩ => exact (rhs_row i _).trans hk
  | ⟨1, _⟩ => exact rhs_col i _

/-- The sum over the contraction shape's indices of the operands' products is the sum over `k : Fin K` of
    `X (r, k) · W (k, c)`. -/
theorem sum_contr_plain {φ₁ φ₂ : FTy} (X : FVec Ideal ⟨2, ![M, K]⟩ φ₁) (W : FVec Ideal ⟨2, ![K, N]⟩ φ₂)
    (i : (⟨2, ![M, N]⟩ : Shape).Idx) :
    (∑ q : (DotDims.plain M K N).contr.Idx, X ((DotDims.plain M K N).lhsIdx i q) * W ((DotDims.plain M K N).rhsIdx i q))
      = ∑ k : Fin K, X (ix2 (i 0) k) * W (ix2 k (i 1)) := by
  rw [← Equiv.sum_comp (contrEquiv1 (DotDims.plain M K N) K rfl rfl).symm]
  refine Finset.sum_congr rfl fun k _ => ?_
  exact congrArg₂ (· * ·) (congrArg X (lhsIdx_plain i k)) (congrArg W (rhsIdx_plain i k))

/-- The `dot_general` with the plain dimension numbers, at the extended reals, is the matrix product:
    entry `(r, c)` is `∑ k, X (r, k) · W (k, c)`, whatever the precision and the schedule key. -/
theorem dotGeneral_plain {φ₁ φ₂ : FTy} (prec : Option ContractPrecision) (sched : HostSchedule)
    (X : FVec Ideal ⟨2, ![M, K]⟩ φ₁) (W : FVec Ideal ⟨2, ![K, N]⟩ φ₂) (i : (⟨2, ![M, N]⟩ : Shape).Idx) :
    FloatOps.dotGeneral (DotDims.plain M K N) prec sched X W i = ∑ k : Fin K, X (ix2 (i 0) k) * W (ix2 k (i 1)) := by
  rw [Ideal.dotGeneral_apply]
  exact sum_contr_plain X W i

/-- The `matmul` with the plain dimension numbers into the zero accumulator, at the extended reals, is the matrix
    product: entry `(r, c)` is `∑ k, X (r, k) · W (k, c)`. -/
theorem matmul_plain_zero {φ₁ φ₂ : FTy} (prec : Option ContractPrecision)
    (X : FVec Ideal ⟨2, ![M, K]⟩ φ₁) (W : FVec Ideal ⟨2, ![K, N]⟩ φ₂) (i : (⟨2, ![M, N]⟩ : Shape).Idx) :
    FloatOps.matmul (DotDims.plain M K N) prec X W (constant ⟨2, ![M, N]⟩ .f32 0x00000000#32) i
      = ∑ k : Fin K, X (ix2 (i 0) k) * W (ix2 k (i 1)) := by
  rw [Ideal.matmul_constant_zero_apply]
  exact sum_contr_plain X W i

end Cert.Proof.PlainDot

end
-- ==== Proof.LibDenseLayer.lean ====
/-
  A dense layer as a vector unit spells it, read at an index on the extended reals, generic in the extents.

  `X · W + b` over `M` rows: both factors rounded to bf16 on their way into the matrix unit (no change of value on the
  extended reals), the product taken into a zero accumulator with the plain `M × K` by `K × N` contraction, the bias vector
  `[N]` cast to one row `[1, N]` and broadcast over the rows; entry `(R, n)` is `(∑ m, X (R, m) · W (m, n)) + b n`.
  A relu spelt as the maximum with a broadcast zero word is `max · 0`.
-/
import Idealize.ShloMosaic.PureOps.Ideal
import Idealize.ShloMosaic.PureOps.Ideal.Laws
import Idealize.ShloMosaic.Lib.ValueIdx
import Idealize.ShloMosaic.Lib.ValueLayout
import proofs.«135997_j41979010351696_2_alg».proof.Proof.LibPlainDot

noncomputable section

open scoped BigOperators

namespace Cert.Proof.DenseLayer

open Idealize.ShloMosaic Idealize.ShloMosaic.ValueIdx

/-- The maximum with a broadcast f32 zero word, at an index, is `max · 0`. -/
theorem relu_apply {s : Shape} (x : FVec Ideal s .f32) (i : s.Idx) :
    maximumf x (broadcast s (FloatOps.ofBits .f32 0x00000000#32)) i = max (x i) 0 := by
  show max (x i) (Ideal.ofBits .f32 0x00000000#32) = max (x i) 0
  rw [Ideal.ofBits_zero_f32]

/-- `X · W + b` in the vector unit's spelling, read at `(R, n)`: the sum over the contracted axis plus the bias entry. -/
theorem affine_apply {M K N : ℕ} (X : FVec Ideal ⟨2, ![M, K]⟩ .f32) (W : FVec Ideal ⟨2, ![K, N]⟩ .f32)
    (b : FVec Ideal ⟨1, ![N]⟩ .f32) (hX hW : FTy.bits .bf16 < FTy.bits .f32)
    (hc : (⟨1, ![N]⟩ : Shape).ShapeCasts ⟨2, ![1, N]⟩) (hb : (⟨2, ![1, N]⟩ : Shape).Broadcasts ⟨2, ![M, N]⟩)
    (R : Fin M) (n : Fin N) :
    addf (matmul (DotDims.plain M K N) none (truncf .bf16 X hX) (truncf .bf16 W hW) (constant ⟨2, ![M, N]⟩ .f32 0x00000000#32))
        (broadcastTo ⟨2, ![M, N]⟩ (shapeCast ⟨2, ![1, N]⟩ b hc) hb) (ix2 R n)
      = (∑ m : Fin K, X (ix2 R m) * W (ix2 m n)) + b (ix1 n) := by
  refine (addf_apply _ _ _).trans (congrArg₂ (· + ·) ?_ ?_)
  · exact Cert.Proof.PlainDot.matmul_plain_zero none (truncf .bf16 X hX) (truncf .bf16 W hW) (ix2 R n)
  · exact (broadcastTo_1b_ab_apply _ hb R n).trans (shapeCast_a_1a_apply b hc 0 n)

end Cert.Proof.DenseLayer

end
-- ==== Proof.KernelBlock.lean ====
/-
  What the kernel's body computes for one block, entry by entry.

  The body receives a `[1, 8, 32, 64]` block of edge features (8 users, 32 access points, 64 resource blocks) and the
  eleven weight arrays whole. It treats the `8 · 32 · 64` edges as rows of a matrix, so an edge `(u, a, k)` is row
  `(u · 32 + a) · 64 + k`, and after the sum over the access points a pair `(u, k)` is row `u · 64 + k`. Read at
  `(·, u, k)`, the stored block is `Spec.score` of the 32 edge features of `(u, k)` and the weights: every
  operation is read at an index, outermost first, and each reading names the one operand entry (or the sum over the
  contracted axis) it stands for.
-/
import proofs.«135997_j41979010351696_2_alg».proof.Proof.Gen.KernelIdeal.Skeleton
import proofs.«135997_j41979010351696_2_alg».proof.Proof.Spec
import proofs.«135997_j41979010351696_2_alg».proof.Proof.LibRank4Layout
import proofs.«135997_j41979010351696_2_alg».proof.Proof.LibDenseLayer
import Idealize.ShloMosaic.Lib.ValueLayout

noncomputable section

open scoped BigOperators

namespace Cert.KernelIdeal.Block

open Cert.KernelIdeal Cert.KernelIdeal.Gen Idealize.ShloMosaic Idealize.ShloMosaic.ValueIdx
open Cert.Proof.Rank4Layout Cert.Proof.DenseLayer

/-- The edge network and the first node layer: row `r = u · 64 + k`, column `h` of the body's first part is the first node
    layer applied to the aggregate of the 32 messages of `(u, k)`. -/
theorem edge_part_apply (v0 : Vec Ideal S1x8x32x64 .f32) (v2 : Vec Ideal S1x64 .f32) (v4 : Vec Ideal S64 .f32)
    (v17 : Vec Ideal S64x64 .f32) (v19 : Vec Ideal S64 .f32) (v30 : Vec Ideal S64x64 .f32) (v32 : Vec Ideal S64 .f32)
    (r : Fin 512) (u : Fin 8) (k : Fin 64) (hr : r.val = u.val * 64 + k.val) (h : Fin 64) :
    k0_pay2 (F := Ideal) v0 v2 v4 v17 v19 v30 v32 (ix2 r h)
      = Spec.dense (Spec.agg (fun a => v0 (ix4 (0 : Fin 1) u a k)) (fun m => v2 (ix2 (0 : Fin 1) m)) (fun m => v4 (ix1 m))
          (fun m n => v17 (ix2 m n)) (fun n => v19 (ix1 n))) (fun n h => v30 (ix2 n h)) (fun h => v32 (ix1 h)) h := by
  unfold k0_pay2
  dsimp only
  unfold Spec.dense
  -- the first node layer: relu of the affine map of the aggregate
  refine (relu_apply _ _).trans (congrArg (fun z => max z 0) ?_)
  refine (affine_apply _ _ _ _ _ _ _ r h).trans
    (congrArg (· + v32 (ix1 h)) (Finset.sum_congr rfl fun n _ => congrArg (· * v30 (ix2 n h)) ?_))
  -- row r of the flattened aggregate is the pair (u, k); the aggregate is the sum over the access points
  refine (shapeCast_acd_rows_apply _ _ r u k n hr).trans ?_
  refine (multiReduction_add_axis1_apply _ _ _ _ _ u k n).trans ?_
  unfold Spec.agg
  refine Finset.sum_congr rfl fun a _ => ?_
  -- the edge (u, a, k) is row R of the flattened edge matrix
  have hu := u.isLt; have ha := a.isLt; have hk := k.isLt
  let R : Fin 16384 := ⟨(u.val * 32 + a.val) * 64 + k.val, by omega⟩
  refine (shapeCast_rows_abcd_apply _ _ R u a k n rfl).trans ?_
  unfold Spec.msg Spec.dense
  refine (relu_apply _ _).trans (congrArg (fun z => max z 0) ?_)
  refine (affine_apply _ _ _ _ _ _ _ R n).trans
    (congrArg (· + v19 (ix1 n)) (Finset.sum_congr rfl fun m _ => congrArg (· * v17 (ix2 m n)) ?_))
  -- the hidden features of the edge
  refine (shapeCast_abcd_rows_apply _ _ R u a k m rfl).trans ?_
  unfold Spec.hidden
  refine (relu_apply _ _).trans (congrArg (fun z => max z 0) ?_)
  refine (addf_apply _ _ _).trans (congrArg₂ (· + ·) ((mulf_apply _ _ _).trans (congrArg₂ (· * ·) ?_ ?_)) ?_)
  · exact (broadcastTo_abc1_abcd_apply _ _ u a k m).trans
      ((shapeCast_abc_abc1_apply _ _ u a k 0).trans (shapeCast_1abc_abc_apply _ _ u a k))
  · exact (broadcastTo_111d_abcd_apply _ _ u a k m).trans
      ((shapeCast_d_111d_apply _ _ 0 0 0 m).trans (shapeCast_1a_a_apply _ _ m))
  · exact (broadcastTo_111d_abcd_apply _ _ u a k m).trans (shapeCast_d_111d_apply _ _ 0 0 0 m)

/-- The rest of the node network and the output layer: the stored block at `(·, u, k)` from row `r = u · 64 + k` of the
    first node layer's result. -/
theorem node_part_apply (v38 : FVec Ideal S512x64 .f32) (v40 : Vec Ideal S64x64 .f32) (v42 : Vec Ideal S64 .f32)
    (v50 : Vec Ideal S64x1 .f32) (v52 : Vec Ideal S1 .f32)
    (z : Fin 1) (u : Fin 8) (k : Fin 64) (r : Fin 512) (hr : r.val = u.val * 64 + k.val) :
    k0_pay1 (F := Ideal) v38 v40 v42 v50 v52 (ix3 z u k)
      = (∑ g : Fin 64, Spec.dense (fun h => v38 (ix2 r h)) (fun h g => v40 (ix2 h g)) (fun g => v42 (ix1 g)) g
            * v50 (ix2 g (0 : Fin 1))) + v52 (ix1 (0 : Fin 1)) := by
  unfold k0_pay1
  refine (shapeCast_ab_1ab_apply _ _ z u k).trans ?_
  refine (shapeCast_vec_ac_apply _ _ r u k hr).trans ?_
  refine (shapeCast_col_vec_apply _ _ r).trans ?_
  refine (affine_apply _ _ _ _ _ _ _ r (0 : Fin 1)).trans
    (congrArg (· + v52 (ix1 (0 : Fin 1))) (Finset.sum_congr rfl fun g _ => congrArg (· * v50 (ix2 g (0 : Fin 1))) ?_))
  unfold Spec.dense
  refine (relu_apply _ _).trans (congrArg (fun z => max z 0) ?_)
  exact affine_apply _ _ _ _ _ _ _ r g

/-- The body's stored block, entry `(·, u, k)`: the score of the 32 edge features of `(u, k)` under the weights. -/
theorem block_apply (x0 : Vec Ideal S1x8x32x64 .f32) (x1 : Vec Ideal S1x64 .f32) (x2 : Vec Ideal S64 .f32)
    (x3 : Vec Ideal S64x64 .f32) (x4 : Vec Ideal S64 .f32) (x5 : Vec Ideal S64x64 .f32) (x6 : Vec Ideal S64 .f32)
    (x7 : Vec Ideal S64x64 .f32) (x8 : Vec Ideal S64 .f32) (x9 : Vec Ideal S64x1 .f32) (x10 : Vec Ideal S1 .f32)
    (z : Fin 1) (u : Fin 8) (k : Fin 64) :
    k0_pay1 (F := Ideal) (k0_pay2 (F := Ideal) x0 x1 x2 x3 x4 x5 x6) x7 x8 x9 x10 (ix3 z u k)
      = Spec.score (fun a => x0 (ix4 (0 : Fin 1) u a k)) (fun m => x1 (ix2 (0 : Fin 1) m)) (fun m => x2 (ix1 m))
          (fun m n => x3 (ix2 m n)) (fun n => x4 (ix1 n)) (fun n h => x5 (ix2 n h)) (fun h => x6 (ix1 h))
          (fun h g => x7 (ix2 h g)) (fun g => x8 (ix1 g)) (fun g => x9 (ix2 g (0 : Fin 1))) (x10 (ix1 (0 : Fin 1))) := by
  have hu := u.isLt; have hk := k.isLt
  let r : Fin 512 := ⟨u.val * 64 + k.val, by omega⟩
  refine (node_part_apply _ x7 x8 x9 x10 z u k r rfl).trans ?_
  unfold Spec.score Spec.node
  refine congrArg (· + x10 (ix1 (0 : Fin 1))) (Finset.sum_congr rfl fun g _ => congrArg (· * x9 (ix2 g (0 : Fin 1))) ?_)
  refine congrArg (fun f => Spec.dense f (fun h g => x7 (ix2 h g)) (fun g => x8 (ix1 g)) g) (funext fun h => ?_)
  exact edge_part_apply x0 x1 x2 x3 x4 x5 x6 r u k rfl h

end Cert.KernelIdeal.Block

end
-- ==== Proof.KernelReads.lean ====
/-
  The result as one function of the argument arrays, and the input blocks read through it.

  The grid has 8 × 8 points; point `(b, j)` stages the edge features of batch `b`, users `8j … 8j + 7` (all access points,
  all resource blocks) and every weight array whole. An element of a staged block is the array's element at block index
  × block size + the coordinate inside the block; the printed index maps are decided once over the 64 points.
-/
import proofs.«135997_j41979010351696_2_alg».proof.Proof.Gen.KernelIdeal.Value
import proofs.«135997_j41979010351696_2_alg».proof.Proof.KernelBlock

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

/-- The score of triple `(b, u, k)` under the argument arrays. -/
def scoreAt (a0 : S8x64x32x64.Idx → Elt Ideal .f32) (a1 : S1x64.Idx → Elt Ideal .f32) (a2 : S64.Idx → Elt Ideal .f32) (a3 : S64x64.Idx → Elt Ideal .f32) (a4 : S64.Idx → Elt Ideal .f32) (a5 : S64x64.Idx → Elt Ideal .f32) (a6 : S64.Idx → Elt Ideal .f32) (a7 : S64x64.Idx → Elt Ideal .f32) (a8 : S64.Idx → Elt Ideal .f32) (a9 : S64x1.Idx → Elt Ideal .f32) (a10 : S1.Idx → Elt Ideal .f32) (b : Fin 8) (u : Fin 64) (k : Fin 64) : EReal :=
  Spec.score (fun a => a0 (ix4 b u a k)) (fun m => a1 (ix2 (0 : Fin 1) m)) (fun m => a2 (ix1 m))
      (fun m n => a3 (ix2 m n)) (fun n => a4 (ix1 n)) (fun n h => a5 (ix2 n h)) (fun h => a6 (ix1 h))
      (fun h g => a7 (ix2 h g)) (fun g => a8 (ix1 g)) (fun g => a9 (ix2 g (0 : Fin 1))) (a10 (ix1 (0 : Fin 1)))

/-- The result array as one function of the argument arrays: the score at each index. -/
def G (a0 : S8x64x32x64.Idx → Elt Ideal .f32) (a1 : S1x64.Idx → Elt Ideal .f32) (a2 : S64.Idx → Elt Ideal .f32) (a3 : S64x64.Idx → Elt Ideal .f32) (a4 : S64.Idx → Elt Ideal .f32) (a5 : S64x64.Idx → Elt Ideal .f32) (a6 : S64.Idx → Elt Ideal .f32) (a7 : S64x64.Idx → Elt Ideal .f32) (a8 : S64.Idx → Elt Ideal .f32) (a9 : S64x1.Idx → Elt Ideal .f32) (a10 : S1.Idx → Elt Ideal .f32) : S8x64x64.Idx → Elt Ideal .f32 := fun i =>
  scoreAt a0 a1 a2 a3 a4 a5 a6 a7 a8 a9 a10 ⟨(i 0).val, (i 0).isLt⟩ ⟨(i 1).val, (i 1).isLt⟩ ⟨(i 2).val, (i 2).isLt⟩

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 64 grid points: the edge window moves with the output window on the batch
    and user-tile axes and stays at 0 on the others; every weight window stays at block 0. -/
theorem idx_facts : ∀ t : Fin cfg0.N,
    win0_0.index t (0 : Fin 4) = win0_11.index t (0 : Fin 3) ∧ win0_0.index t (1 : Fin 4) = win0_11.index t (1 : Fin 3)
    ∧ win0_0.index t (2 : Fin 4) = 0 ∧ win0_0.index t (3 : Fin 4) = 0 ∧ win0_11.index t (2 : Fin 3) = 0
    ∧ win0_11.index t (0 : Fin 3) ≤ 7 ∧ win0_11.index t (1 : Fin 3) ≤ 7
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0 :=
  (by decide +kernel : ∀ t : Fin grid0.N, _)

/-- Every (batch, user-tile) pair is some point's block index. -/
theorem idx_onto : ∀ (q0 : Fin 8) (q1 : Fin 8), ∃ t : Fin cfg0.N, win0_11.index t = ![q0.val, q1.val, 0] :=
  (by decide +kernel : ∀ (q0 : Fin 8) (q1 : Fin 8), ∃ t : Fin grid0.N, win0_11.index t = ![q0.val, q1.val, 0])

/-! ## The input blocks, read where the output block says -/

/-- The edge block of point `t` at `(·, u, a, k)` is the edge array at the batch and user the output block's `(·, u, k)` lands on. -/
theorem edge_read (c : Dev nD) (t : Fin cfg0.N) (z z' : Fin 1) (u : Fin 8) (a : Fin 32) (k : Fin 64)
    (b' : Fin 8) (u' : Fin 64) (k' : Fin 64)
    (hb : b'.val = (((cfg0.win 11).blk t).view.emb (ix3 z' u k) 0).val)
    (hu : u'.val = (((cfg0.win 11).blk t).view.emb (ix3 z' u k) 1).val)
    (hk : k'.val = (((cfg0.win 11).blk t).view.emb (ix3 z' u k) 2).val) :
    iblk m c 0 t (ix4 z u a k) = V m c main_arg0 (ix4 b' u' a k') := by
  obtain ⟨e0, e1, e2, e3, e4, -⟩ := idx_facts t
  show V m c main_arg0 (((cfg0.win 0).blk t).view.emb (ix4 z u a k)) = V m c main_arg0 (ix4 b' u' a k')
  refine congrArg (V m c main_arg0) (funext fun ax => Fin.ext ?_)
  have hz : z.val = 0 := by omega
  have hz' : z'.val = 0 := by omega
  have hb' : b'.val = win0_11.index t (0 : Fin 3) * 1 + 1 * z'.val := hb
  have hu' : u'.val = win0_11.index t (1 : Fin 3) * 8 + 1 * u.val := hu
  have hk' : k'.val = win0_11.index t (2 : Fin 3) * 64 + 1 * k.val := hk
  match ax with
  | ⟨0, _⟩ => show win0_0.index t (0 : Fin 4) * 1 + 1 * z.val = b'.val; omega
  | ⟨1, _⟩ => show win0_0.index t (1 : Fin 4) * 8 + 1 * u.val = u'.val; omega
  | ⟨2, _⟩ => show win0_0.index t (2 : Fin 4) * 32 + 1 * a.val = a.val; omega
  | ⟨3, _⟩ => show win0_0.index t (3 : Fin 4) * 64 + 1 * k.val = k'.val; omega

/-- Window 1 stages its array whole: its block at any point is the array. -/
theorem read1 (c : Dev nD) (t : Fin cfg0.N) (p : Fin 1) (q : Fin 64) :
    iblk m c 1 t (ix2 p q) = V m c main_arg1 (ix2 p q) := by
  have f := idx_facts t
  show V m c main_arg1 (((cfg0.win 1).blk t).view.emb (ix2 p q)) = V m c main_arg1 (ix2 p q)
  refine congrArg (V m c main_arg1) (funext fun ax => Fin.ext ?_)
  match ax with
  | ⟨0, _⟩ => show win0_1.index t (0 : Fin 2) * 1 + 1 * p.val = p.val; omega
  | ⟨1, _⟩ => show win0_1.index t (1 : Fin 2) * 64 + 1 * q.val = q.val; omega

/-- Window 3 stages its array whole: its block at any point is the array. -/
theorem read3 (c : Dev nD) (t : Fin cfg0.N) (p : Fin 64) (q : Fin 64) :
    iblk m c 3 t (ix2 p q) = V m c main_arg3 (ix2 p q) := by
  have f := idx_facts t
  show V m c main_arg3 (((cfg0.win 3).blk t).view.emb (ix2 p q)) = V m c main_arg3 (ix2 p q)
  refine congrArg (V m c main_arg3) (funext fun ax => Fin.ext ?_)
  match ax with
  | ⟨0, _⟩ => show win0_3.index t (0 : Fin 2) * 64 + 1 * p.val = p.val; omega
  | ⟨1, _⟩ => show win0_3.index t (1 : Fin 2) * 64 + 1 * q.val = q.val; omega

/-- Window 5 stages its array whole: its block at any point is the array. -/
theorem read5 (c : Dev nD) (t : Fin cfg0.N) (p : Fin 64) (q : Fin 64) :
    iblk m c 5 t (ix2 p q) = V m c main_arg5 (ix2 p q) := by
  have f := idx_facts t
  show V m c main_arg5 (((cfg0.win 5).blk t).view.emb (ix2 p q)) = V m c main_arg5 (ix2 p q)
  refine congrArg (V m c main_arg5) (funext fun ax => Fin.ext ?_)
  match ax with
  | ⟨0, _⟩ => show win0_5.index t (0 : Fin 2) * 64 + 1 * p.val = p.val; omega
  | ⟨1, _⟩ => show win0_5.index t (1 : Fin 2) * 64 + 1 * q.val = q.val; omega

/-- Window 7 stages its array whole: its block at any point is the array. -/
theorem read7 (c : Dev nD) (t : Fin cfg0.N) (p : Fin 64) (q : Fin 64) :
    iblk m c 7 t (ix2 p q) = V m c main_arg7 (ix2 p q) := by
  have f := idx_facts t
  show V m c main_arg7 (((cfg0.win 7).blk t).view.emb (ix2 p q)) = V m c main_arg7 (ix2 p q)
  refine congrArg (V m c main_arg7) (funext fun ax => Fin.ext ?_)
  match ax with
  | ⟨0, _⟩ => show win0_7.index t (0 : Fin 2) * 64 + 1 * p.val = p.val; omega
  | ⟨1, _⟩ => show win0_7.index t (1 : Fin 2) * 64 + 1 * q.val = q.val; omega

/-- Window 9 stages its array whole: its block at any point is the array. -/
theorem read9 (c : Dev nD) (t : Fin cfg0.N) (p : Fin 64) (q : Fin 1) :
    iblk m c 9 t (ix2 p q) = V m c main_arg9 (ix2 p q) := by
  have f := idx_facts t
  show V m c main_arg9 (((cfg0.win 9).blk t).view.emb (ix2 p q)) = V m c main_arg9 (ix2 p q)
  refine congrArg (V m c main_arg9) (funext fun ax => Fin.ext ?_)
  match ax with
  | ⟨0, _⟩ => show win0_9.index t (0 : Fin 2) * 64 + 1 * p.val = p.val; omega
  | ⟨1, _⟩ => show win0_9.index t (1 : Fin 2) * 1 + 1 * q.val = q.val; omega

/-- Window 2 stages its array whole: its block at any point is the array. -/
theorem read2 (c : Dev nD) (t : Fin cfg0.N) (p : Fin 64) :
    iblk m c 2 t (ix1 p) = V m c main_arg2 (ix1 p) := by
  have f := idx_facts t
  show V m c main_arg2 (((cfg0.win 2).blk t).view.emb (ix1 p)) = V m c main_arg2 (ix1 p)
  refine congrArg (V m c main_arg2) (funext fun ax => Fin.ext ?_)
  match ax with
  | ⟨0, _⟩ => show win0_2.index t (0 : Fin 1) * 64 + 1 * p.val = p.val; omega

/-- Window 4 stages its array whole: its block at any point is the array. -/
theorem read4 (c : Dev nD) (t : Fin cfg0.N) (p : Fin 64) :
    iblk m c 4 t (ix1 p) = V m c main_arg4 (ix1 p) := by
  have f := idx_facts t
  show V m c main_arg4 (((cfg0.win 4).blk t).view.emb (ix1 p)) = V m c main_arg4 (ix1 p)
  refine congrArg (V m c main_arg4) (funext fun ax => Fin.ext ?_)
  match ax with
  | ⟨0, _⟩ => show win0_4.index t (0 : Fin 1) * 64 + 1 * p.val = p.val; omega

/-- Window 6 stages its array whole: its block at any point is the array. -/
theorem read6 (c : Dev nD) (t : Fin cfg0.N) (p : Fin 64) :
    iblk m c 6 t (ix1 p) = V m c main_arg6 (ix1 p) := by
  have f := idx_facts t
  show V m c main_arg6 (((cfg0.win 6).blk t).view.emb (ix1 p)) = V m c main_arg6 (ix1 p)
  refine congrArg (V m c main_arg6) (funext fun ax => Fin.ext ?_)
  match ax with
  | ⟨0, _⟩ => show win0_6.index t (0 : Fin 1) * 64 + 1 * p.val = p.val; omega

/-- Window 8 stages its array whole: its block at any point is the array. -/
theorem read8 (c : Dev nD) (t : Fin cfg0.N) (p : Fin 64) :
    iblk m c 8 t (ix1 p) = V m c main_arg8 (ix1 p) := by
  have f := idx_facts t
  show V m c main_arg8 (((cfg0.win 8).blk t).view.emb (ix1 p)) = V m c main_arg8 (ix1 p)
  refine congrArg (V m c main_arg8) (funext fun ax => Fin.ext ?_)
  match ax with
  | ⟨0, _⟩ => show win0_8.index t (0 : Fin 1) * 64 + 1 * p.val = p.val; omega

/-- Window 10 stages its array whole: its block at any point is the array. -/
theorem read10 (c : Dev nD) (t : Fin cfg0.N) (p : Fin 1) :
    iblk m c 10 t (ix1 p) = V m c main_arg10 (ix1 p) := by
  have f := idx_facts t
  show V m c main_arg10 (((cfg0.win 10).blk t).view.emb (ix1 p)) = V m c main_arg10 (ix1 p)
  refine congrArg (V m c main_arg10) (funext fun ax => Fin.ext ?_)
  match ax with
  | ⟨0, _⟩ => show win0_10.index t (0 : Fin 1) * 1 + 1 * p.val = p.val; omega

end Cert.KernelIdeal.Whole

end
-- ==== Proof.KernelArray.lean ====
/-
  From the blocks to the array: the kernel's result array is the score of every (batch, user, resource-block) triple.

  What point `(b, j)` of the 8 × 8 grid writes back is rows `8j … 8j + 7` of batch `b` of ONE function `G` of the argument
  arrays — the score at each array index: the body's block at `(·, u, k)` is the score of the block's 32 edge features of
  `(u, k)`, which are the edge array's at `(b, 8j + u, ·, k)`. The 64 blocks tile the `[8, 64, 64]` result.
-/
import proofs.«135997_j41979010351696_2_alg».proof.Proof.KernelReads

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The body's block at point `t`, entry `(z, u, k)`, is `G` of the argument arrays at the array index under that entry. -/
theorem block_eq (c : Dev nD) (t : Fin cfg0.N) (z : Fin 1) (u : Fin 8) (k : Fin 64) :
    k0_pay1 (F := Ideal) (k0_pay2 (F := Ideal) (iblk m c 0 t) (iblk m c 1 t) (iblk m c 2 t) (iblk m c 3 t) (iblk m c 4 t) (iblk m c 5 t) (iblk m c 6 t)) (iblk m c 7 t) (iblk m c 8 t) (iblk m c 9 t) (iblk m c 10 t) (ix3 z u k)
      = G (V m c main_arg0) (V m c main_arg1) (V m c main_arg2) (V m c main_arg3) (V m c main_arg4) (V m c main_arg5) (V m c main_arg6) (V m c main_arg7) (V m c main_arg8) (V m c main_arg9) (V m c main_arg10) (((cfg0.win 11).blk t).view.emb (ix3 z u k)) := by
  refine (Cert.KernelIdeal.Block.block_apply (iblk m c 0 t) (iblk m c 1 t) (iblk m c 2 t) (iblk m c 3 t) (iblk m c 4 t) (iblk m c 5 t) (iblk m c 6 t) (iblk m c 7 t) (iblk m c 8 t) (iblk m c 9 t) (iblk m c 10 t) z u k).trans ?_
  unfold G scoreAt
  exact Spec.score_congr (funext fun a => edge_read m c t 0 z u a k _ _ _ rfl rfl rfl)
    (funext fun p => read1 m c t 0 p) (funext fun p => read2 m c t p)
    (funext fun p => funext fun q => read3 m c t p q) (funext fun p => read4 m c t p)
    (funext fun p => funext fun q => read5 m c t p q) (funext fun p => read6 m c t p)
    (funext fun p => funext fun q => read7 m c t p q) (funext fun p => read8 m c t p)
    (funext fun p => read9 m c t p 0) (read10 m c t 0)

/-- WHAT POINT `t` WRITES BACK is block `t` of `G` of the argument arrays. -/
theorem flushed_eq (c : Dev nD) (t : Fin cfg0.N) :
    (dats m 0 c).flushed 11 t = ((cfg0.win 11).blk t).view.read (Elt Ideal) (G (V m c main_arg0) (V m c main_arg1) (V m c main_arg2) (V m c main_arg3) (V m c main_arg4) (V m c main_arg5) (V m c main_arg6) (V m c main_arg7) (V m c main_arg8) (V m c main_arg9) (V m c main_arg10)) := by
  rw [Cert.KernelIdeal.Value.flushed11]
  unfold out0_11
  rw [View.canon_unit_zero hz3]
  simp only [View.ld_unit_zero (S := S1x8x32x64) hz4, View.ld_unit_zero (S := S1x64) hz2, View.ld_unit_zero (S := S64) hz1,
    View.ld_unit_zero (S := S64x64) hz2, View.ld_unit_zero (S := S64x1) hz2, View.ld_unit_zero (S := S1) hz1]
  funext j
  obtain ⟨z, u, k, rfl⟩ : ∃ (z : Fin 1) (u : Fin 8) (k : Fin 64), j = ix3 z u k :=
    ⟨j 0, j 1, j 2, eq_ix3 (n0 := 1) (n1 := 8) (n2 := 64) j⟩
  exact block_eq m c t z u k

/-- An index of the result is in point `t`'s block iff each coordinate is in the block's range on its axis. -/
theorem mem_blk (t : Fin cfg0.N) (i : S8x64x64.Idx) :
    i ∈ ((cfg0.win 11).blk t).view.set ↔ ∀ a : Fin 3, win0_11.index t a * S1x8x64.size a ≤ (i a).val ∧ (i a).val < win0_11.index t a * S1x8x64.size a + S1x8x64.size a := by
  show i ∈ ((View.whole main_v0).slice (win0_11.rect t)).set ↔ _
  rw [View.set_slice_whole, Rect.mem_set_unit]
  exact Iff.rfl

/-- The 64 blocks tile the result: index `(b, u', k)` is in the block of the point whose block index is `(b, u' / 8, 0)`. -/
theorem cover (i : S8x64x64.Idx) : ∃ t : Fin cfg0.N, (cfg0.win 11).flush t = true ∧ i ∈ ((cfg0.win 11).blk t).view.set := by
  have hi0 : (i 0).val < 8 := (i 0).isLt
  have hi1 : (i 1).val < 64 := (i 1).isLt
  have hi2 : (i 2).val < 64 := (i 2).isLt
  obtain ⟨t, ht⟩ := idx_onto ⟨(i 0).val, hi0⟩ ⟨(i 1).val / 8, by omega⟩
  have q0 : win0_11.index t (0 : Fin 3) = (i 0).val := congrFun ht 0
  have q1 : win0_11.index t (1 : Fin 3) = (i 1).val / 8 := congrFun ht 1
  have q2 : win0_11.index t (2 : Fin 3) = 0 := congrFun ht 2
  refine ⟨t, flush0_11 t, ?_⟩
  rw [mem_blk]
  intro a
  match a with
  | ⟨0, _⟩ => show win0_11.index t (0 : Fin 3) * 1 ≤ (i 0).val ∧ (i 0).val < win0_11.index t (0 : Fin 3) * 1 + 1; omega
  | ⟨1, _⟩ => show win0_11.index t (1 : Fin 3) * 8 ≤ (i 1).val ∧ (i 1).val < win0_11.index t (1 : Fin 3) * 8 + 8; omega
  | ⟨2, _⟩ => show win0_11.index t (2 : Fin 3) * 64 ≤ (i 2).val ∧ (i 2).val < win0_11.index t (2 : Fin 3) * 64 + 64; omega

/-- THE ARRAY after the run is `G` of the argument arrays. -/
theorem final (c : Dev nD) : (dats m 0 c).arrAt 11 cfg0.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 11 (G (V m c main_arg0) (V m c main_arg1) (V m c main_arg2) (V m c main_arg3) (V m c main_arg4) (V m c main_arg5) (V m c main_arg6) (V m c main_arg7) (V m c main_arg8) (V m c main_arg9) (V m c main_arg10)) (fun t _ => flushed_eq m c t) cover

/-- The kernel's run: the result array ends at `G` of the argument arrays, the arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Cert.KernelIdeal.Value.run_blocks m ρ)

end Cert.KernelIdeal.Whole

end
-- ==== Proof.ReferenceValue.lean ====
/-
  The reference, one stage at a time, is the specification.

  The reference works on the whole `[8, 64, 32, 64]` array of edge features with a trailing feature axis: the hidden
  features and the messages are `[8, 64, 32, 64, 64]`, the sum over the access points (axis 2) and the node layers are
  `[8, 64, 64, 64]`, the score is `[8, 64, 64, 1]` reshaped to `[8, 64, 64]`. Each stage is read at an index given by
  its coordinates; the broadcasts, the reshape and the contractions name operand entries by coordinates too, and
  the equations between those index terms are decided coordinate by coordinate.
-/
import proofs.«135997_j41979010351696_2_alg».proof.Proof.Gen.ReferenceIdeal.Read
import proofs.«135997_j41979010351696_2_alg».proof.Proof.Spec

noncomputable section

open scoped BigOperators

namespace Cert.ReferenceIdeal.RefValue

open Cert.ReferenceIdeal Cert.ReferenceIdeal.Read Idealize.ShloMosaic Idealize.ShloMosaic.ValueIdx

/-- The zero word the reference's relu and sum start from is the real 0. -/
theorem zero_word : (FloatOps.ofBits .f32 0x00000000#32 : Ideal .f32) = (0 : EReal) := Ideal.ofBits_zero_f32

/-- The hidden features of edge `(b, u, a, k)`. -/
theorem hidden_apply (x0 : (⟨S8x64x32x64, .f32⟩ : BufTy).Contents (Elt Ideal)) (x1 : (⟨S1x64, .f32⟩ : BufTy).Contents (Elt Ideal)) (x2 : (⟨S64, .f32⟩ : BufTy).Contents (Elt Ideal))
    (b : Fin 8) (u : Fin 64) (a : Fin 32) (k : Fin 64) (m : Fin 64) :
    val_main_v9 (F := Ideal) x0 x1 x2 (ix5 b u a k m) = Spec.hidden (x0 (ix4 b u a k)) (fun m => x1 (ix2 (0 : Fin 1) m)) (fun m => x2 (ix1 m)) m := by
  rw [val_main_v9_apply, val_main_v8_apply, val_main_v5_apply, val_main_v3_apply, val_main_v0_apply, val_main_v4_apply,
    val_main_v2_apply, val_main_v1_apply, val_main_v7_apply, val_main_v6_apply, val_main_call0_v0_apply, val_main_call0_cst_apply]
  have e0 : idx_main_v0 (idx_main_v3 (ix5 b u a k m)) = ix4 b u a k := funext fun ax => Fin.ext (by
    match ax with | ⟨0, _⟩ => rfl | ⟨1, _⟩ => rfl | ⟨2, _⟩ => rfl | ⟨3, _⟩ => rfl)
  have e1 : idx_main_v1 (idx_main_v2 (idx_main_v4 (ix5 b u a k m))) = ix2 (0 : Fin 1) m := funext fun ax => Fin.ext (by
    match ax with | ⟨0, _⟩ => rfl | ⟨1, _⟩ => exact Nat.mod_eq_of_lt m.isLt)
  have e2 : idx_main_v6 (idx_main_v7 (ix5 b u a k m)) = ix1 m := funext fun ax => Fin.ext (by
    match ax with | ⟨0, _⟩ => rfl)
  rw [e0, e1, e2, zero_word]
  rfl

/-- The message of edge `(b, u, a, k)`. -/
theorem msg_apply (x0 : (⟨S8x64x32x64, .f32⟩ : BufTy).Contents (Elt Ideal)) (x1 : (⟨S1x64, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal))
    (b : Fin 8) (u : Fin 64) (a : Fin 32) (k : Fin 64) (n : Fin 64) :
    val_main_v14 (F := Ideal) x0 x1 x2 x3 x4 (ix5 b u a k n) = Spec.msg (x0 (ix4 b u a k)) (fun m => x1 (ix2 (0 : Fin 1) m)) (fun m => x2 (ix1 m)) (fun m n => x3 (ix2 m n)) (fun n => x4 (ix1 n)) n := by
  rw [val_main_v14_apply, val_main_v13_apply, val_main_v10_apply, val_main_v12_apply, val_main_v11_apply,
    val_main_call1_v0_apply, val_main_call1_cst_apply]
  have el : ∀ m : Fin 64, lidx_main_v10 (ix5 b u a k n) m = ix5 b u a k m := fun m => funext fun ax => Fin.ext (by
    match ax with | ⟨0, _⟩ => rfl | ⟨1, _⟩ => rfl | ⟨2, _⟩ => rfl | ⟨3, _⟩ => rfl | ⟨4, _⟩ => rfl)
  have er : ∀ m : Fin 64, ridx_main_v10 (ix5 b u a k n) m = ix2 m n := fun m => funext fun ax => Fin.ext (by
    match ax with | ⟨0, _⟩ => rfl | ⟨1, _⟩ => rfl)
  have eb : idx_main_v11 (idx_main_v12 (ix5 b u a k n)) = ix1 n := funext fun ax => Fin.ext (by
    match ax with | ⟨0, _⟩ => rfl)
  rw [eb, zero_word, Finset.sum_congr rfl fun m _ => by rw [el m, er m, hidden_apply x0 x1 x2 b u a k m]]
  rfl

/-- The aggregate of pair `(u, k)` of batch `b`: the reference's sum starts from the zero word. -/
theorem agg_apply (x0 : (⟨S8x64x32x64, .f32⟩ : BufTy).Contents (Elt Ideal)) (x1 : (⟨S1x64, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal))
    (b : Fin 8) (u : Fin 64) (k : Fin 64) (n : Fin 64) :
    val_main_v15 (F := Ideal) x0 x1 x2 x3 x4 (ix4 b u k n) = Spec.agg (fun a => x0 (ix4 b u a k)) (fun m => x1 (ix2 (0 : Fin 1) m)) (fun m => x2 (ix1 m)) (fun m n => x3 (ix2 m n)) (fun n => x4 (ix1 n)) n := by
  rw [val_main_v15_apply, val_main_cst_apply]
  have e : ∀ a : Fin 32, idx_main_v15 (ix4 b u k n) a = ix5 b u a k n := fun a => funext fun ax => Fin.ext (by
    match ax with | ⟨0, _⟩ => rfl | ⟨1, _⟩ => rfl | ⟨2, _⟩ => rfl | ⟨3, _⟩ => rfl | ⟨4, _⟩ => rfl)
  rw [zero_word, zero_add, Finset.sum_congr rfl fun a _ => by rw [e a, msg_apply x0 x1 x2 x3 x4 b u a k n]]
  rfl

/-- The first node layer. -/
theorem node1_apply (x0 : (⟨S8x64x32x64, .f32⟩ : BufTy).Contents (Elt Ideal)) (x1 : (⟨S1x64, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal))
    (b : Fin 8) (u : Fin 64) (k : Fin 64) (h : Fin 64) :
    val_main_v20 (F := Ideal) x0 x1 x2 x3 x4 x5 x6 (ix4 b u k h)
      = Spec.dense (Spec.agg (fun a => x0 (ix4 b u a k)) (fun m => x1 (ix2 (0 : Fin 1) m)) (fun m => x2 (ix1 m)) (fun m n => x3 (ix2 m n)) (fun n => x4 (ix1 n))) (fun n h => x5 (ix2 n h)) (fun h => x6 (ix1 h)) h := by
  rw [val_main_v20_apply, val_main_v19_apply, val_main_v16_apply, val_main_v18_apply, val_main_v17_apply,
    val_main_call2_v0_apply, val_main_call2_cst_apply]
  have el : ∀ n : Fin 64, lidx_main_v16 (ix4 b u k h) n = ix4 b u k n := fun n => funext fun ax => Fin.ext (by
    match ax with | ⟨0, _⟩ => rfl | ⟨1, _⟩ => rfl | ⟨2, _⟩ => rfl | ⟨3, _⟩ => rfl)
  have er : ∀ n : Fin 64, ridx_main_v16 (ix4 b u k h) n = ix2 n h := fun n => funext fun ax => Fin.ext (by
    match ax with | ⟨0, _⟩ => rfl | ⟨1, _⟩ => rfl)
  have eb : idx_main_v17 (idx_main_v18 (ix4 b u k h)) = ix1 h := funext fun ax => Fin.ext (by
    match ax with | ⟨0, _⟩ => rfl)
  rw [eb, zero_word, Finset.sum_congr rfl fun n _ => by rw [el n, er n, agg_apply x0 x1 x2 x3 x4 b u k n]]
  rfl

/-- The second node layer. -/
theorem node2_apply (x0 : (⟨S8x64x32x64, .f32⟩ : BufTy).Contents (Elt Ideal)) (x1 : (⟨S1x64, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal))
    (b : Fin 8) (u : Fin 64) (k : Fin 64) (g : Fin 64) :
    val_main_v25 (F := Ideal) x0 x1 x2 x3 x4 x5 x6 x7 x8 (ix4 b u k g)
      = Spec.node (fun a => x0 (ix4 b u a k)) (fun m => x1 (ix2 (0 : Fin 1) m)) (fun m => x2 (ix1 m)) (fun m n => x3 (ix2 m n)) (fun n => x4 (ix1 n)) (fun n h => x5 (ix2 n h)) (fun h => x6 (ix1 h)) (fun h g => x7 (ix2 h g)) (fun g => x8 (ix1 g)) g := by
  rw [val_main_v25_apply, val_main_v24_apply, val_main_v21_apply, val_main_v23_apply, val_main_v22_apply,
    val_main_call3_v0_apply, val_main_call3_cst_apply]
  have el : ∀ h : Fin 64, lidx_main_v21 (ix4 b u k g) h = ix4 b u k h := fun h => funext fun ax => Fin.ext (by
    match ax with | ⟨0, _⟩ => rfl | ⟨1, _⟩ => rfl | ⟨2, _⟩ => rfl | ⟨3, _⟩ => rfl)
  have er : ∀ h : Fin 64, ridx_main_v21 (ix4 b u k g) h = ix2 h g := fun h => funext fun ax => Fin.ext (by
    match ax with | ⟨0, _⟩ => rfl | ⟨1, _⟩ => rfl)
  have eb : idx_main_v22 (idx_main_v23 (ix4 b u k g)) = ix1 g := funext fun ax => Fin.ext (by
    match ax with | ⟨0, _⟩ => rfl)
  rw [eb, zero_word, Finset.sum_congr rfl fun h _ => by rw [el h, er h, node1_apply x0 x1 x2 x3 x4 x5 x6 b u k h]]
  rfl

/-- The score column. -/
theorem score_col_apply (x0 : (⟨S8x64x32x64, .f32⟩ : BufTy).Contents (Elt Ideal)) (x1 : (⟨S1x64, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x1, .f32⟩ : BufTy).Contents (Elt Ideal)) (x10 : (⟨S1, .f32⟩ : BufTy).Contents (Elt Ideal))
    (b : Fin 8) (u : Fin 64) (k : Fin 64) :
    val_main_v29 (F := Ideal) x0 x1 x2 x3 x4 x5 x6 x7 x8 x9 x10 (ix4 b u k (0 : Fin 1))
      = Spec.score (fun a => x0 (ix4 b u a k)) (fun m => x1 (ix2 (0 : Fin 1) m)) (fun m => x2 (ix1 m)) (fun m n => x3 (ix2 m n)) (fun n => x4 (ix1 n)) (fun n h => x5 (ix2 n h)) (fun h => x6 (ix1 h)) (fun h g => x7 (ix2 h g)) (fun g => x8 (ix1 g)) (fun g => x9 (ix2 g (0 : Fin 1))) (x10 (ix1 (0 : Fin 1))) := by
  rw [val_main_v29_apply, val_main_v26_apply, val_main_v28_apply, val_main_v27_apply]
  have el : ∀ g : Fin 64, lidx_main_v26 (ix4 b u k (0 : Fin 1)) g = ix4 b u k g := fun g => funext fun ax => Fin.ext (by
    match ax with | ⟨0, _⟩ => rfl | ⟨1, _⟩ => rfl | ⟨2, _⟩ => rfl | ⟨3, _⟩ => rfl)
  have er : ∀ g : Fin 64, ridx_main_v26 (ix4 b u k (0 : Fin 1)) g = ix2 g (0 : Fin 1) := fun g => funext fun ax => Fin.ext (by
    match ax with | ⟨0, _⟩ => rfl | ⟨1, _⟩ => rfl)
  have eb : idx_main_v27 (idx_main_v28 (ix4 b u k (0 : Fin 1))) = ix1 (0 : Fin 1) := funext fun ax => Fin.ext (by
    match ax with | ⟨0, _⟩ => rfl)
  rw [eb, Finset.sum_congr rfl fun g _ => by rw [el g, er g, node2_apply x0 x1 x2 x3 x4 x5 x6 x7 x8 b u k g]]
  rfl

/-- The reference's result at `(b, u, k)`. -/
theorem result_apply (x0 : (⟨S8x64x32x64, .f32⟩ : BufTy).Contents (Elt Ideal)) (x1 : (⟨S1x64, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x1, .f32⟩ : BufTy).Contents (Elt Ideal)) (x10 : (⟨S1, .f32⟩ : BufTy).Contents (Elt Ideal))
    (b : Fin 8) (u : Fin 64) (k : Fin 64) :
    val_main_v30 (F := Ideal) x0 x1 x2 x3 x4 x5 x6 x7 x8 x9 x10 (ix3 b u k)
      = Spec.score (fun a => x0 (ix4 b u a k)) (fun m => x1 (ix2 (0 : Fin 1) m)) (fun m => x2 (ix1 m)) (fun m n => x3 (ix2 m n)) (fun n => x4 (ix1 n)) (fun n h => x5 (ix2 n h)) (fun h => x6 (ix1 h)) (fun h g => x7 (ix2 h g)) (fun g => x8 (ix1 g)) (fun g => x9 (ix2 g (0 : Fin 1))) (x10 (ix1 (0 : Fin 1))) := by
  rw [val_main_v30_apply]
  have hb := b.isLt; have hu := u.isLt; have hk := k.isLt
  have e : idx_main_v30 (ix3 b u k) = ix4 b u k (0 : Fin 1) := funext fun ax => Fin.ext (by
    match ax with
    | ⟨0, _⟩ => show ((b.val * 64 + u.val) * 64 + k.val) / 4096 = b.val; omega
    | ⟨1, _⟩ => show ((b.val * 64 + u.val) * 64 + k.val) / 64 % 64 = u.val; omega
    | ⟨2, _⟩ => show ((b.val * 64 + u.val) * 64 + k.val) / 1 % 64 = k.val; omega
    | ⟨3, _⟩ => rfl)
  rw [e]
  exact score_col_apply x0 x1 x2 x3 x4 x5 x6 x7 x8 x9 x10 b u k

end Cert.ReferenceIdeal.RefValue

end
-- ==== Proof.lean ====
/-
  The certificate: a graph-network scoring kernel against its plain array reference, equal on the extended reals.

  Both programs compute, for every (batch, user, resource-block) triple, the score `Spec.score` of the triple's 32
  edge features under eleven weight arrays (Proof/Spec.lean): an edge network of two layers with relu, a sum over the
  access points, a node network of two layers with relu, an output column and a bias. The kernel does it block by
  block over an 8 × 8 grid, with the edges of a block laid out as rows of a matrix and the factors of every matrix
  product rounded to bf16 on the way in — no change of value on the extended reals —; the reference does it on
  whole arrays with a trailing feature axis. No law of arithmetic is needed beyond `0 + s = s` for the reference's sum:
  every sum runs over the same index set in both programs, so finiteness of the inputs is never used.

  The kernel's result array is `Whole.G` of the argument arrays (Proof/KernelArray.lean, over Proof/KernelBlock.lean's
  reading of one block); the reference's result, read at an index, is the same score (Proof/ReferenceValue.lean). The ideal
  pass rewrote nothing, so `preserves` is `True`.
-/
import proofs.«135997_j41979010351696_2_alg».proof.Defs
import proofs.«135997_j41979010351696_2_alg».proof.Proof.Gen.Kernel
import proofs.«135997_j41979010351696_2_alg».proof.Proof.Gen.Kernel.Skeleton
import proofs.«135997_j41979010351696_2_alg».proof.Proof.Gen.Kernel.Launch
import proofs.«135997_j41979010351696_2_alg».proof.Proof.Gen.Kernel.Points
import proofs.«135997_j41979010351696_2_alg».proof.Proof.Gen.Kernel.Frame
import proofs.«135997_j41979010351696_2_alg».proof.Proof.Gen.KernelIdeal
import proofs.«135997_j41979010351696_2_alg».proof.Proof.Gen.KernelIdeal.Skeleton
import proofs.«135997_j41979010351696_2_alg».proof.Proof.Gen.KernelIdeal.Launch
import proofs.«135997_j41979010351696_2_alg».proof.Proof.Gen.KernelIdeal.Points
import proofs.«135997_j41979010351696_2_alg».proof.Proof.Gen.KernelIdeal.Frame
import proofs.«135997_j41979010351696_2_alg».proof.Proof.Gen.ReferenceIdeal
import proofs.«135997_j41979010351696_2_alg».proof.Proof.Gen.Pre_finite_inputs
import proofs.«135997_j41979010351696_2_alg».proof.Proof.Gen.KernelIdeal.Value
import proofs.«135997_j41979010351696_2_alg».proof.Proof.Gen.ReferenceIdeal.Run
import proofs.«135997_j41979010351696_2_alg».proof.Proof.Gen.ReferenceIdeal.Read
import proofs.«135997_j41979010351696_2_alg».proof.Proof.KernelArray
import proofs.«135997_j41979010351696_2_alg».proof.Proof.ReferenceValue
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs and keeps its arguments. -/
theorem frame_kernel : Cert.frame_Kernel := fun m ρ _ => Cert.Kernel.Gen.frame m ρ

/-- The idealized kernel runs and keeps its arguments. -/
theorem frame_kernel_ideal : Cert.frame_KernelIdeal := fun m ρ _ => Cert.KernelIdeal.Gen.frame m ρ

/-- The idealized reference runs and keeps its arguments: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- On the extended reals the kernel's result array ends at the score of every triple, and the reference's result, read at
    `(b, u, k)`, is the same score of arguments that agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [h0, h1, h2, h3, h4, h5, h6, h7, h8, h9, h10]
  refine (Cert.ReferenceIdeal.Read.val_main_v30_eq _ _ _ _ _ _ _ _ _ _ _).trans (funext fun i => ?_)
  obtain ⟨b, u, k, rfl⟩ : ∃ (b : Fin 8) (u : Fin 64) (k : Fin 64), i = ix3 b u k := ⟨i 0, i 1, i 2, eq_ix3 i⟩
  exact Cert.ReferenceIdeal.RefValue.result_apply _ _ _ _ _ _ _ _ _ _ _ b u k

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
